-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x768 : Shape := ⟨3, ![2, 1024, 768]⟩
abbrev S16x1536 : Shape := ⟨2, ![16, 1536]⟩
abbrev S16 : Shape := ⟨1, ![16]⟩
abbrev S_ : Shape := ⟨0, ![]⟩

class Facts : Prop where
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel
  bcast_S_S16x1536 : S_.BroadcastsInDim S16x1536 (![] : Fin 0 → Fin S16x1536.rank)
  reducesTo_S16x1536_S_d0_1 : S16x1536.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2x1024x768 .f32) (main_arg1 : FVec F S16x1536 .f32) (main_arg2 : FVec F S16 .f32) : IVec S_ 1 :=
  let main_v0 : FVec F S2x1024x768 .f32 := Host.absf main_arg0
  let main_cst : FVec F S_ .f32 := constant S_ .f32 0x7F800000#32
  let main_v1 : FVec F S2x1024x768 .f32 := broadcastInDim S2x1024x768 ![] bcast_S_S2x1024x768 main_cst
  let main_v2 : IVec S2x1024x768 1 := cmpf .olt main_v0 main_v1
  let main_c : IVec S_ 1 := constantI S_ 1 1#1
  let main_v3 : IVec S_ 1 := (fun x v => Host.reduce IntOp.andi x v reducesTo_S2x1024x768_S_d0_1_2 h_S_) main_v2 main_c
  let main_v4 : FVec F S16x1536 .f32 := Host.absf main_arg1
  let main_cst_0 : FVec F S_ .f32 := constant S_ .f32 0x7F800000#32
  let main_v5 : FVec F S16x1536 .f32 := broadcastInDim S16x1536 ![] bcast_S_S16x1536 main_cst_0
  let main_v6 : IVec S16x1536 1 := cmpf .olt main_v4 main_v5
  let main_c_1 : IVec S_ 1 := constantI S_ 1 1#1
  let main_v7 : IVec S_ 1 := (fun x v => Host.reduce IntOp.andi x v reducesTo_S16x1536_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S2x1024x768 : Shape := ⟨3, ![2, 1024, 768]⟩
abbrev S16x1536 : Shape := ⟨2, ![16, 1536]⟩
abbrev S16 : Shape := ⟨1, ![16]⟩
abbrev S16x768 : Shape := ⟨2, ![16, 768]⟩
abbrev S2x1024x16 : Shape := ⟨3, ![2, 1024, 16]⟩
abbrev S1x1024x768 : Shape := ⟨3, ![1, 1024, 768]⟩
abbrev S1x1024x16 : Shape := ⟨3, ![1, 1024, 16]⟩
abbrev S1024x768 : Shape := ⟨2, ![1024, 768]⟩
abbrev S1024x16 : Shape := ⟨2, ![1024, 16]⟩
abbrev S1x1x16 : Shape := ⟨3, ![1, 1, 16]⟩
abbrev S2x1x16384 : Shape := ⟨3, ![2, 1, 16384]⟩
abbrev S2x1024x16384 : Shape := ⟨3, ![2, 1024, 16384]⟩
abbrev S1x128x16 : Shape := ⟨3, ![1, 128, 16]⟩
abbrev S1x1x16384 : Shape := ⟨3, ![1, 1, 16384]⟩
abbrev S1x128x16384 : Shape := ⟨3, ![1, 128, 16384]⟩
abbrev S128x16 : Shape := ⟨2, ![128, 16]⟩
abbrev S16384 : Shape := ⟨1, ![16384]⟩
abbrev S128x16384 : Shape := ⟨2, ![128, 16384]⟩
abbrev S1x16384 : Shape := ⟨2, ![1, 16384]⟩
abbrev S2x1024x1024x16 : Shape := ⟨4, ![2, 1024, 1024, 16]⟩

abbrev nBuf : Space → Nat
  | .hbm => 13
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S16x1536, .f32⟩
  | .hbm, ⟨2, _⟩ => ⟨S16, .f32⟩
  | .hbm, ⟨3, _⟩ => ⟨S16x768, .f32⟩
  | .hbm, ⟨4, _⟩ => ⟨S16x768, .f32⟩
  | .hbm, ⟨5, _⟩ => ⟨S2x1024x16, .f32⟩
  | .hbm, ⟨6, _⟩ => ⟨S2x1024x16, .f32⟩
  | .hbm, ⟨7, _⟩ => ⟨S1x1x16, .f32⟩
  | .hbm, ⟨8, _⟩ => ⟨S2x1024x16, .f32⟩
  | .hbm, ⟨9, _⟩ => ⟨S2x1024x16, .f32⟩
  | .hbm, ⟨10, _⟩ => ⟨S2x1x16384, .f32⟩
  | .hbm, ⟨11, _⟩ => ⟨S2x1024x16384, .f32⟩
  | .hbm, ⟨12, _⟩ => ⟨S2x1024x1024x16, .f32⟩
  | .local _ .vmem, ⟨0, _⟩ => ⟨S1x1024x768, .f32⟩
  | .local _ .vmem, ⟨1, _⟩ => ⟨S1x1024x768, .f32⟩
  | .local _ .vmem, ⟨2, _⟩ => ⟨S16x768, .f32⟩
  | .local _ .vmem, ⟨3, _⟩ => ⟨S16x768, .f32⟩
  | .local _ .vmem, ⟨4, _⟩ => ⟨S1x1024x16, .f32⟩
  | .local _ .vmem, ⟨5, _⟩ => ⟨S1x1024x16, .f32⟩
  | .local _ .vmem, ⟨6, _⟩ => ⟨S1x1024x16, .f32⟩
  | .local _ .vmem, ⟨7, _⟩ => ⟨S1x1024x16, .f32⟩
  | .local _ .vmem, ⟨8, _⟩ => ⟨S1x128x16, .f32⟩
  | .local _ .vmem, ⟨9, _⟩ => ⟨S1x128x16, .f32⟩
  | .local _ .vmem, ⟨10, _⟩ => ⟨S1x1x16384, .f32⟩
  | .local _ .vmem, ⟨11, _⟩ => ⟨S1x1x16384, .f32⟩
  | .local _ .vmem, ⟨12, _⟩ => ⟨S1x128x16384, .f32⟩
  | .local _ .vmem, ⟨13, _⟩ => ⟨S1x128x16384, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S16x1536_S16x768_0_0 : S16x1536.Slices ![0, 0] S16x768
  slices_S16x1536_S16x768_0_768 : S16x1536.Slices ![0, 768] S16x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S16x768_S16x768_0_0 : ∀ a, (![0, 0] : Fin 2 → Nat) a + S16x768.size a ≤ S16x768.size a
  h_S16x768 : 0 < S16x768.numel
  shapeCasts_S16x768_S16x768 : S16x768.ShapeCasts S16x768
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  bcast_S16_S1x1x16_2 : S16.BroadcastsInDim S1x1x16 (![2] : Fin 1 → Fin S1x1x16.rank)
  bcast_S1x1x16_S2x1024x16_0_1_2 : S1x1x16.BroadcastsInDim S2x1024x16 (![0, 1, 2] : Fin 3 → Fin S2x1024x16.rank)
  shapeCasts_S2x1024x16_S2x1x16384 : S2x1024x16.ShapeCasts S2x1x16384
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S16384 : S1x1x16384.ShapeCasts S16384
  concatenates_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16384_d1 : Shape.Concatenates (S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: S128x16 :: []) S128x16384 1
  shapeCasts_S16384_S1x16384 : S16384.ShapeCasts S1x16384
  broadcasts_S1x16384_S128x16384 : S1x16384.Broadcasts S128x16384
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  shapeCasts_S128x16384_S1x128x16384 : S128x16384.ShapeCasts S1x128x16384
  shapeCasts_S2x1024x16384_S2x1024x1024x16 : S2x1024x16384.ShapeCasts S2x1024x1024x16
  dot_S1024x768_S16x768_S1024x16_1_1_0_0_n_n_wf : DotDims.WF S1024x768 S16x768 S1024x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S2x1024x768.size a
  hwx0_0 : ∀ i : grid0.Coords, EltTy.bits .f32 = 32 ∨ (Rect.block (s := S2x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x768.size a ≤ S16x768.size a
  hwx0_1 : ∀ i : grid0.Coords, EltTy.bits .f32 = 32 ∨ (Rect.block (s := S16x768) S16x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x768.size a ≤ S16x768.size a
  hwx0_2 : ∀ i : grid0.Coords, EltTy.bits .f32 = 32 ∨ (Rect.block (s := S16x768) S16x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16.size a ≤ S2x1024x16.size a
  hwx0_3 : ∀ i : grid0.Coords, EltTy.bits .f32 = 32 ∨ (Rect.block (s := S2x1024x16) S1x1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x16.size a ≤ S2x1024x16.size a
  hwx0_4 : ∀ i : grid0.Coords, EltTy.bits .f32 = 32 ∨ (Rect.block (s := S2x1024x16) S1x1024x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x16.size a ≤ S2x1024x16.size a
  hwx1_0 : ∀ i : grid1.Coords, EltTy.bits .f32 = 32 ∨ (Rect.block (s := S2x1024x16) S1x128x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x16384.size a ≤ S2x1x16384.size a
  hwx1_1 : ∀ i : grid1.Coords, EltTy.bits .f32 = 32 ∨ (Rect.block (s := S2x1x16384) S1x1x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x16384.size a ≤ S2x1024x16384.size a
  hwx1_2 : ∀ i : grid1.Coords, EltTy.bits .f32 = 32 ∨ (Rect.block (s := S2x1024x16384) S1x128x16384.size (cc1_transform_2 i) (hinb1_2 i)).WholeWords (EltTy.packing .f32)

variable [Facts₀]

def dot_S1024x768_S16x768_S1024x16_1_1_0_0_n_n : DotDims S1024x768 S16x768 S1024x16 where
  lhsContracting := [1]
  rhsContracting := [1]
  lhsNonContracting := [0]
  rhsNonContracting := [0]
  lhsBatch := []
  rhsBatch := []
  wf := dot_S1024x768_S16x768_S1024x16_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1024x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1024x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x1024x768 : Shape := ⟨3, ![2, 1024, 768]⟩
abbrev S16x1536 : Shape := ⟨2, ![16, 1536]⟩
abbrev S16 : Shape := ⟨1, ![16]⟩
abbrev S16x768 : Shape := ⟨2, ![16, 768]⟩
abbrev S2x1024x16 : Shape := ⟨3, ![2, 1024, 16]⟩
abbrev S2x1024x1x16 : Shape := ⟨4, ![2, 1024, 1, 16]⟩
abbrev S2x1x1024x16 : Shape := ⟨4, ![2, 1, 1024, 16]⟩
abbrev S2x1024x1024x16 : Shape := ⟨4, ![2, 1024, 1024, 16]⟩
abbrev S1x1x1x16 : Shape := ⟨4, ![1, 1, 1, 16]⟩

abbrev nBuf : Space → Nat
  | .hbm => 15
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S16x1536, .f32⟩
  | .hbm, ⟨2, _⟩ => ⟨S16, .f32⟩
  | .hbm, ⟨3, _⟩ => ⟨S16x768, .f32⟩
  | .hbm, ⟨4, _⟩ => ⟨S16x768, .f32⟩
  | .hbm, ⟨5, _⟩ => ⟨S2x1024x16, .f32⟩
  | .hbm, ⟨6, _⟩ => ⟨S2x1024x16, .f32⟩
  | .hbm, ⟨7, _⟩ => ⟨S2x1024x1x16, .f32⟩
  | .hbm, ⟨8, _⟩ => ⟨S2x1x1024x16, .f32⟩
  | .hbm, ⟨9, _⟩ => ⟨S2x1024x1024x16, .f32⟩
  | .hbm, ⟨10, _⟩ => ⟨S2x1024x1024x16, .f32⟩
  | .hbm, ⟨11, _⟩ => ⟨S2x1024x1024x16, .f32⟩
  | .hbm, ⟨12, _⟩ => ⟨S1x1x1x16, .f32⟩
  | .hbm, ⟨13, _⟩ => ⟨S2x1024x1024x16, .f32⟩
  | .hbm, ⟨14, _⟩ => ⟨S2x1024x1024x16, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S16x1536_S16x768_0_0 : S16x1536.Slices ![0, 0] S16x768
  slices_S16x1536_S16x768_0_768 : S16x1536.Slices ![0, 768] S16x768
  bcast_S2x1024x16_S2x1024x1x16_0_1_3 : S2x1024x16.BroadcastsInDim S2x1024x1x16 (![0, 1, 3] : Fin 3 → Fin S2x1024x1x16.rank)
  bcast_S2x1024x16_S2x1x1024x16_0_2_3 : S2x1024x16.BroadcastsInDim S2x1x1024x16 (![0, 2, 3] : Fin 3 → Fin S2x1x1024x16.rank)
  bcast_S2x1024x1x16_S2x1024x1024x16_0_1_2_3 : S2x1024x1x16.BroadcastsInDim S2x1024x1024x16 (![0, 1, 2, 3] : Fin 4 → Fin S2x1024x1024x16.rank)
  bcast_S2x1x1024x16_S2x1024x1024x16_0_1_2_3 : S2x1x1024x16.BroadcastsInDim S2x1024x1024x16 (![0, 1, 2, 3] : Fin 4 → Fin S2x1024x1024x16.rank)
  bcast_S16_S1x1x1x16_3 : S16.BroadcastsInDim S1x1x1x16 (![3] : Fin 1 → Fin S1x1x1x16.rank)
  bcast_S1x1x1x16_S2x1024x1024x16_0_1_2_3 : S1x1x1x16.BroadcastsInDim S2x1024x1024x16 (![0, 1, 2, 3] : Fin 4 → Fin S2x1024x1024x16.rank)
  dot_S2x1024x768_S16x768_S2x1024x16_2_1_01_0_n_n_wf : DotDims.WF S2x1024x768 S16x768 S2x1024x16 [2] [1] [0, 1] [0] [] []

variable [Facts₀]

def dot_S2x1024x768_S16x768_S2x1024x16_2_1_01_0_n_n : DotDims S2x1024x768 S16x768 S2x1024x16 where
  lhsContracting := [2]
  rhsContracting := [1]
  lhsNonContracting := [0, 1]
  rhsNonContracting := [0]
  lhsBatch := []
  rhsBatch := []
  wf := dot_S2x1024x768_S16x768_S2x1024x16_2_1_01_0_n_n_wf

class Facts : Prop extends Facts₀ where

variable [Facts]
-- ==== Proof.Boundary.lean ====
/-
  The idealized kernel's whole run, read at its last boundary.

  The program is two kernel regions among three stretches of host operations. Its run is a fold over the launch
  memory: a stretch rewrites the buffers its operations name, a region leaves in each of its output arrays what its
  grid points wrote back and every other buffer as it found it. This module states once that every weakly fair
  execution terminates, nothing faulting, with every buffer that outlives the regions holding exactly what that fold
  gives at its end; the modules after it open the fold one stage at a time.
-/
import proofs.«146051_j15977278341602_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this statement, which takes
-- unfolding plain definitions in a metavariable's type
set_option backward.isDefEq.respectTransparency.types false in
/-- Every weakly fair execution of the program ends with each buffer that outlives the regions at the value the fold
    over the five segments gives it: the thread state after the last stretch holds those buffers at that valuation,
    and it is read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer and the three argument buffers are among the buffers read at the end. -/
theorem run_result : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)
    (run_boundary m ρ)

end Cert.KernelIdeal.Whole

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.ProjBody.lean ====
/-
  What the projection kernel's body stores, entry by entry, over the extended reals.

  At a grid point the body holds one batch's tokens, a block `x` of shape [1, 1024, 768], and two blocks of weight
  rows, each [16, 768]. It drops the block's unit axis, multiplies the tokens by the TRANSPOSE of a weight block on the
  matrix unit into a zero accumulator (both operands contracted on their feature axis), and stores the product with the
  unit axis put back. Narrowing the operands to bf16 is the identity on extended reals, and the zero accumulator adds
  nothing, so the stored entry at token `q` and class `o` is the plain sum over the 768 features of
  `x (0, q, h) * w (o, h)`. The two stores differ only in the weight block they use.
-/
import proofs.«146051_j15977278341602_2_alg».proof.Proof.Gen.KernelIdeal.Skeleton
import proofs.«146051_j15977278341602_2_alg».proof.Proof.LibRowsTimesRows
import Idealize.ShloMosaic.Lib.Pipeline.Value
import Idealize.ShloMosaic.Lib.ValueIdx
import Idealize.ShloMosaic.Lib.ValueLayout

noncomputable section

namespace Cert.KernelIdeal.Proj

open Cert.KernelIdeal Cert.KernelIdeal.Gen
open Idealize.ShloMosaic Idealize.ShloMosaic.ValueIdx

/-- The printed record of the product is the one whose two operands are contracted on their second axes. -/
theorem dot_eq_rows : dot_S1024x768_S16x768_S1024x16_1_1_0_0_n_n
    = Cert.RowsTimesRows.rowsDims 1024 768 16 dot_S1024x768_S16x768_S1024x16_1_1_0_0_n_n.wf := rfl

/-- A token block times the transpose of a weight block, stored with the unit axis restored: entry `(0, q, o)` is the
    token's features contracted with the weight row of class `o`. -/
theorem left_store_apply (x : Vec Ideal S1x1024x768 .f32) (w : Vec Ideal S16x768 .f32) (q : Fin 1024) (o : Fin 16) :
    k0_pay2 (F := Ideal) x w (ix3 (0 : Fin 1) q o) = ∑ h : Fin 768, x (ix3 (0 : Fin 1) q h) * w (ix2 o h) := by
  unfold k0_pay2 k0_pay1
  dsimp only
  refine (shapeCast_ab_1ab_apply _ _ (0 : Fin 1) q o).trans ?_
  rw [dot_eq_rows]
  refine (Cert.RowsTimesRows.rowsMatmul_zero_apply _ none _ _ q o).trans ?_
  refine Finset.sum_congr rfl fun h _ => ?_
  show shapeCast S1024x768 x shapeCasts_S1x1024x768_S1024x768 (ix2 q h)
      * shapeCast S16x768 w shapeCasts_S16x768_S16x768 (ix2 o h) = _
  rw [shapeCast_1ab_ab_apply, shapeCast_self]

/-- The same at any index of the stored block: its first coordinate is the unit axis. -/
theorem left_store_at (x : Vec Ideal S1x1024x768 .f32) (w : Vec Ideal S16x768 .f32) (y : S1x1024x16.Idx) :
    k0_pay2 (F := Ideal) x w y = ∑ h : Fin 768, x (ix3 (0 : Fin 1) (y 1) h) * w (ix2 (y 2) h) := by
  obtain ⟨u, q, o, rfl⟩ : ∃ (u : Fin 1) (q : Fin 1024) (o : Fin 16), y = ix3 u q o := ⟨y 0, y 1, y 2, eq_ix3 y⟩
  obtain rfl : u = 0 := Subsingleton.elim _ _
  exact left_store_apply x w q o

/-- The second store is the same product with the other weight block. -/
theorem right_store_eq (x : Vec Ideal S1x1024x768 .f32) (w : Vec Ideal S16x768 .f32) :
    k0_pay3 (F := Ideal) x w = k0_pay2 (F := Ideal) x w := rfl

end Cert.KernelIdeal.Proj

end
-- ==== Proof.ProjRegion.lean ====
/-
  The projection region as a whole: each of its two output arrays, [2, 1024, 16], after the run.

  The region's grid has one point per batch. Point `t` reads batch `t` of the token array (a block [1, 1024, 768])
  and both weight blocks whole, and writes back one block [1, 1024, 16] of each output, batch `t` again. So what a
  point writes back is its batch's block of ONE function of the arrays the region finds — entry `(b, l, c)` the
  features of token `l` of batch `b` contracted with weight row `c` — and since the two blocks cover the array,
  the array ends holding that function. This is stated for any contents `V` the region is entered with.
-/
import proofs.«146051_j15977278341602_2_alg».proof.Proof.Gen.KernelIdeal.Frame
import proofs.«146051_j15977278341602_2_alg».proof.Proof.ProjBody

set_option maxRecDepth 16384

noncomputable section

namespace Cert.KernelIdeal.Proj

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Every token's features contracted with every weight row: entry `(b, l, c)` is the sum over the 768 features of
    `x (b, l, h) * w (c, h)`. -/
def rowsOf (x : S2x1024x768.Idx → Elt Ideal .f32) (w : S16x768.Idx → Elt Ideal .f32) : S2x1024x16.Idx → Elt Ideal .f32 :=
  fun i => ∑ h : Fin 768, x (ix3 (i 0) (i 1) h) * w (ix2 (i 2) h)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the two grid points: the token window and both output windows sit at block
    `(t, 0, 0)`, the weight windows at block `(0, 0)`. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point `t` writes back to the first output is block `t` of `rowsOf` of the tokens and the first weight
    block, as the region finds them. -/
theorem flushed_left (c : Dev nD) (t : Fin cfg0.N) :
    (dat0 V c).flushed 3 t = ((cfg0.win 3).blk t).view.read (Elt Ideal) (rowsOf (V c main_arg0) (V c main_v0)) := by
  show (cfg0.win 3).cut (grid0.coords t) ((dat0 V c).after 3 t) = _
  rw [after0_3]
  unfold out0_3
  rw [View.canon_unit_zero zero3]
  simp only [View.ld_unit_zero (S := S1x1024x768) zero3, View.ld_unit_zero (S := S16x768) zero2]
  obtain ⟨e0, e1, e2, e3, e4, e5, e6, e7, e8, e9, e10, e11, e12⟩ := index_facts t
  funext j
  show k0_pay2 (iblk0 V c 0 t) (iblk0 V c 1 t) j = rowsOf (V c main_arg0) (V c main_v0) (((cfg0.win 3).blk t).view.emb j)
  refine (left_store_at (iblk0 V c 0 t) (iblk0 V c 1 t) j).trans ?_
  unfold rowsOf
  refine Finset.sum_congr rfl fun h _ => ?_
  have hj0 : (j 0).val < 1 := (j 0).isLt
  have hj1 : (j 1).val < 1024 := (j 1).isLt
  have hj2 : (j 2).val < 16 := (j 2).isLt
  have hx : iblk0 V c 0 t (ix3 (0 : Fin 1) (j 1) h)
      = V c main_arg0 (ix3 ((((cfg0.win 3).blk t).view.emb j) 0) ((((cfg0.win 3).blk t).view.emb j) 1) h) := by
    show V c main_arg0 (((cfg0.win 0).blk t).view.emb (ix3 (0 : Fin 1) (j 1) h)) = _
    refine congrArg (V c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 1024 + 1 * (j 1).val = win0_3.index t (1 : Fin 3) * 1024 + 1 * (j 1).val; omega
    | ⟨2, _⟩ => show win0_0.index t (2 : Fin 3) * 768 + 1 * h.val = h.val; omega
  have hw : iblk0 V c 1 t (ix2 (j 2) h) = V c main_v0 (ix2 ((((cfg0.win 3).blk t).view.emb j) 2) h) := by
    show V c main_v0 (((cfg0.win 1).blk t).view.emb (ix2 (j 2) h)) = _
    refine congrArg (V c main_v0) (funext fun a => Fin.ext ?_)
    match a with
    | ⟨0, _⟩ => show win0_1.index t (0 : Fin 2) * 16 + 1 * (j 2).val = win0_3.index t (2 : Fin 3) * 16 + 1 * (j 2).val; omega
    | ⟨1, _⟩ => show win0_1.index t (1 : Fin 2) * 768 + 1 * h.val = h.val; omega
  rw [hx, hw]

/-- What point `t` writes back to the second output: the same with the second weight block. -/
theorem flushed_right (c : Dev nD) (t : Fin cfg0.N) :
    (dat0 V c).flushed 4 t = ((cfg0.win 4).blk t).view.read (Elt Ideal) (rowsOf (V c main_arg0) (V c main_v1)) := by
  show (cfg0.win 4).cut (grid0.coords t) ((dat0 V c).after 4 t) = _
  rw [after0_4]
  unfold out0_4
  rw [View.canon_unit_zero zero3]
  simp only [View.ld_unit_zero (S := S1x1024x768) zero3, View.ld_unit_zero (S := S16x768) zero2]
  rw [right_store_eq]
  obtain ⟨e0, e1, e2, e3, e4, e5, e6, e7, e8, e9, e10, e11, e12⟩ := index_facts t
  funext j
  show k0_pay2 (iblk0 V c 0 t) (iblk0 V c 2 t) j = rowsOf (V c main_arg0) (V c main_v1) (((cfg0.win 4).blk t).view.emb j)
  refine (left_store_at (iblk0 V c 0 t) (iblk0 V c 2 t) j).trans ?_
  unfold rowsOf
  refine Finset.sum_congr rfl fun h _ => ?_
  have hj0 : (j 0).val < 1 := (j 0).isLt
  have hj1 : (j 1).val < 1024 := (j 1).isLt
  have hj2 : (j 2).val < 16 := (j 2).isLt
  have hx : iblk0 V c 0 t (ix3 (0 : Fin 1) (j 1) h)
      = V c main_arg0 (ix3 ((((cfg0.win 4).blk t).view.emb j) 0) ((((cfg0.win 4).blk t).view.emb j) 1) h) := by
    show V c main_arg0 (((cfg0.win 0).blk t).view.emb (ix3 (0 : Fin 1) (j 1) h)) = _
    refine congrArg (V c main_arg0) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 1024 + 1 * (j 1).val = win0_4.index t (1 : Fin 3) * 1024 + 1 * (j 1).val; omega
    | ⟨2, _⟩ => show win0_0.index t (2 : Fin 3) * 768 + 1 * h.val = h.val; omega
  have hw : iblk0 V c 2 t (ix2 (j 2) h) = V c main_v1 (ix2 ((((cfg0.win 4).blk t).view.emb j) 2) h) := by
    show V c main_v1 (((cfg0.win 2).blk t).view.emb (ix2 (j 2) h)) = _
    refine congrArg (V c main_v1) (funext fun a => Fin.ext ?_)
    match a with
    | ⟨0, _⟩ => show win0_2.index t (0 : Fin 2) * 16 + 1 * (j 2).val = win0_4.index t (2 : Fin 3) * 16 + 1 * (j 2).val; omega
    | ⟨1, _⟩ => show win0_2.index t (1 : Fin 2) * 768 + 1 * h.val = h.val; omega
  rw [hx, hw]

/-- An index of the first output array is in point `t`'s block iff each coordinate is in the block's range. -/
theorem mem_left (t : Fin cfg0.N) (i : S2x1024x16.Idx) :
    i ∈ ((cfg0.win 3).blk t).view.set ↔ ∀ a : Fin 3, win0_3.index t a * S1x1024x16.size a ≤ (i a).val
      ∧ (i a).val < win0_3.index t a * S1x1024x16.size a + S1x1024x16.size a := by
  show i ∈ ((View.whole main_v2_0).slice (win0_3.rect t)).set ↔ _
  rw [View.set_slice_whole, Rect.mem_set_unit]
  exact Iff.rfl

theorem mem_right (t : Fin cfg0.N) (i : S2x1024x16.Idx) :
    i ∈ ((cfg0.win 4).blk t).view.set ↔ ∀ a : Fin 3, win0_4.index t a * S1x1024x16.size a ≤ (i a).val
      ∧ (i a).val < win0_4.index t a * S1x1024x16.size a + S1x1024x16.size a := by
  show i ∈ ((View.whole main_v2_1).slice (win0_4.rect t)).set ↔ _
  rw [View.set_slice_whole, Rect.mem_set_unit]
  exact Iff.rfl

/-- The point that covers batch `b` is point `b`. -/
def pointOf (i : S2x1024x16.Idx) : Fin cfg0.N :=
  ⟨(i 0).val, by have hN : grid0.N = 2 := N_0; have hi : (i 0).val < 2 := (i 0).isLt; show (i 0).val < grid0.N; omega⟩

theorem cover_left (i : S2x1024x16.Idx) :
    ∃ t : Fin cfg0.N, (cfg0.win 3).flush t = true ∧ i ∈ ((cfg0.win 3).blk t).view.set := by
  have hi1 : (i 1).val < 1024 := (i 1).isLt
  have hi2 : (i 2).val < 16 := (i 2).isLt
  have ht : (pointOf i).val = (i 0).val := rfl
  obtain ⟨e0, e1, e2, e3, e4, e5, e6, e7, e8, e9, e10, e11, e12⟩ := index_facts (pointOf i)
  refine ⟨pointOf i, flush0_3 _, ?_⟩
  rw [mem_left]
  intro a
  match a with
  | ⟨0, _⟩ => show win0_3.index (pointOf i) (0 : Fin 3) * 1 ≤ (i 0).val ∧ (i 0).val < win0_3.index (pointOf i) (0 : Fin 3) * 1 + 1; omega
  | ⟨1, _⟩ => show win0_3.index (pointOf i) (1 : Fin 3) * 1024 ≤ (i 1).val ∧ (i 1).val < win0_3.index (pointOf i) (1 : Fin 3) * 1024 + 1024; omega
  | ⟨2, _⟩ => show win0_3.index (pointOf i) (2 : Fin 3) * 16 ≤ (i 2).val ∧ (i 2).val < win0_3.index (pointOf i) (2 : Fin 3) * 16 + 16; omega

theorem cover_right (i : S2x1024x16.Idx) :
    ∃ t : Fin cfg0.N, (cfg0.win 4).flush t = true ∧ i ∈ ((cfg0.win 4).blk t).view.set := by
  have hi1 : (i 1).val < 1024 := (i 1).isLt
  have hi2 : (i 2).val < 16 := (i 2).isLt
  have ht : (pointOf i).val = (i 0).val := rfl
  obtain ⟨e0, e1, e2, e3, e4, e5, e6, e7, e8, e9, e10, e11, e12⟩ := index_facts (pointOf i)
  refine ⟨pointOf i, flush0_4 _, ?_⟩
  rw [mem_right]
  intro a
  match a with
  | ⟨0, _⟩ => show win0_4.index (pointOf i) (0 : Fin 3) * 1 ≤ (i 0).val ∧ (i 0).val < win0_4.index (pointOf i) (0 : Fin 3) * 1 + 1; omega
  | ⟨1, _⟩ => show win0_4.index (pointOf i) (1 : Fin 3) * 1024 ≤ (i 1).val ∧ (i 1).val < win0_4.index (pointOf i) (1 : Fin 3) * 1024 + 1024; omega
  | ⟨2, _⟩ => show win0_4.index (pointOf i) (2 : Fin 3) * 16 ≤ (i 2).val ∧ (i 2).val < win0_4.index (pointOf i) (2 : Fin 3) * 16 + 16; omega

/-- THE FIRST OUTPUT ARRAY after the region: every token contracted with every row of the first weight block. -/
theorem left_array (c : Dev nD) : (dat0 V c).arrAt 3 cfg0.N = rowsOf (V c main_arg0) (V c main_v0) :=
  (dat0 V c).arrAt_eq_of_cover 3 _ (fun t _ => flushed_left V c t) cover_left

/-- THE SECOND OUTPUT ARRAY after the region: the same with the second weight block. -/
theorem right_array (c : Dev nD) : (dat0 V c).arrAt 4 cfg0.N = rowsOf (V c main_arg0) (V c main_v1) :=
  (dat0 V c).arrAt_eq_of_cover 4 _ (fun t _ => flushed_right V c t) cover_right

end Cert.KernelIdeal.Proj

end
-- ==== Proof.LibLaneTile.lean ====
/-
  Three layout readings at an index, for any sizes.

  * A matrix [R, K] repeated N times along its second axis (a tile along the lanes): column `n` of the repeated matrix
    is column `n mod K` of the matrix, whichever copy it falls in.
  * A reshape that splits the last axis, [a, b, d·e] → [a, b, d, e]: entry `(i, j, k, l)` is the operand at
    `(i, j, k·e + l)`.
  * A reshape that flattens the two trailing axes behind a unit axis, [a, b, c] → [a, 1, b·c]: entry
    `(i, 0, j·c + k)` is the operand at `(i, j, k)`.

  The reshapes are equalities of row-major positions; the tile is the library's reading of a concatenation of copies
  of one piece, with the index spelt by coordinates. Any entry type.
-/
import Idealize.ShloMosaic.Lib.Pipeline.Value
import Idealize.ShloMosaic.Lib.ValueIdx
import Mathlib.Tactic.Ring

noncomputable section

namespace Cert.LaneTile

open Idealize.ShloMosaic Idealize.ShloMosaic.ValueIdx

/-- Position `k·e + l` among `d·e`, for `k < d` and `l < e`. -/
theorem pos_lt {d e : Nat} (k : Fin d) (l : Fin e) : k.val * e + l.val < d * e :=
  calc k.val * e + l.val < k.val * e + e := Nat.add_lt_add_left l.isLt _
    _ = (k.val + 1) * e := by ring
    _ ≤ d * e := Nat.mul_le_mul_right e k.isLt

/-- The position of `(k, l)` in a row-major [d, e] grid. -/
abbrev pos {d e : Nat} (k : Fin d) (l : Fin e) : Fin (d * e) := ⟨k.val * e + l.val, pos_lt k l⟩

/-- A matrix [R, K] repeated N times along its second axis, read at `(r, n)`: the matrix at `(r, n mod K)`. -/
theorem tile_lanes_apply {α : Type} {R K N : Nat} (hK : 0 < K) (v : (⟨2, ![R, K]⟩ : Shape).Idx → α)
    (h : Shape.Concatenates ((List.replicate N (⟨⟨2, ![R, K]⟩, v⟩ : (s : Shape) × (s.Idx → α))).map (·.1))
      ⟨2, ![R, N * K]⟩ 1)
    (r : Fin R) (n : Fin (N * K)) :
    concatenate ⟨2, ![R, N * K]⟩ 1 (List.replicate N (⟨⟨2, ![R, K]⟩, v⟩ : (s : Shape) × (s.Idx → α))) h (ix2 r n)
      = v (ix2 r ⟨n.val % K, Nat.mod_lt _ hK⟩) := by
  refine concatenate_replicate_apply (t := ⟨2, ![R, N * K]⟩) (s₁ := ⟨2, ![R, K]⟩) (1 : Fin 2) N v h rfl
    (ix2 r n) (ix2 r ⟨n.val % K, Nat.mod_lt _ hK⟩) rfl ?_
  intro b hb
  match b with
  | ⟨0, _⟩ => rfl
  | ⟨1, _⟩ => exact absurd (Fin.ext rfl) hb

/-- A reshape [a, b, d·e] → [a, b, d, e] read at `(i, j, k, l)`: the operand at `(i, j, k·e + l)`. -/
theorem split_last_apply {α : Type} {a b d e : Nat} (x : (⟨3, ![a, b, d * e]⟩ : Shape).Idx → α)
    (h : (⟨3, ![a, b, d * e]⟩ : Shape).ShapeCasts ⟨4, ![a, b, d, e]⟩) (i : Fin a) (j : Fin b) (k : Fin d) (l : Fin e) :
    shapeCast ⟨4, ![a, b, d, e]⟩ x h (ix4 i j k l) = x (ix3 i j (pos k l)) := by
  refine shapeCast_apply x h (ix4 i j k l) (ix3 i j (pos k l)) ?_
  rw [Shape.rowMajor_val_three, Shape.rowMajor_val_four]
  show (i.val * b + j.val) * (d * e) + (k.val * e + l.val) = ((i.val * b + j.val) * d + k.val) * e + l.val
  ring

/-- A reshape [a, b, c] → [a, 1, b·c] read at `(i, 0, j·c + k)`: the operand at `(i, j, k)`. -/
theorem flatten_rows_apply {α : Type} {a b c : Nat} (z : (⟨3, ![a, b, c]⟩ : Shape).Idx → α)
    (h : (⟨3, ![a, b, c]⟩ : Shape).ShapeCasts ⟨3, ![a, 1, b * c]⟩) (i : Fin a) (j : Fin b) (k : Fin c) :
    shapeCast ⟨3, ![a, 1, b * c]⟩ z h (ix3 i (0 : Fin 1) (pos j k)) = z (ix3 i j k) := by
  refine shapeCast_apply z h (ix3 i (0 : Fin 1) (pos j k)) (ix3 i j k) ?_
  rw [Shape.rowMajor_val_three, Shape.rowMajor_val_three]
  show (i.val * b + j.val) * c + k.val = (i.val * 1 + 0) * (b * c) + (j.val * c + k.val)
  ring

end Cert.LaneTile

end
-- ==== Proof.TileBody.lean ====
/-
  What the broadcast-add kernel's body stores, entry by entry, over the extended reals.

  At a grid point the body holds a block `x` of shape [1, 128, 16] (128 tokens' class scores) and a block `p` of shape
  [1, 1, 16384] (one batch's 1024 × 16 scores laid out as a single row, class fastest). It drops `x`'s unit axis,
  repeats the [128, 16] matrix 1024 times along its second axis — so column `n` of the repeated matrix is column
  `n mod 16` of `x` —, flattens `p` to a vector, stands it up as a one-row matrix copied down the 128 rows, adds the
  two, and stores the sum with the unit axis put back. The stored entry at row `r` and column `n` is therefore
  `x (0, r, n mod 16) + p (0, 0, n)`.
-/
import proofs.«146051_j15977278341602_2_alg».proof.Proof.Gen.KernelIdeal.Skeleton
import proofs.«146051_j15977278341602_2_alg».proof.Proof.LibLaneTile
import Idealize.ShloMosaic.Lib.Pipeline.Value
import Idealize.ShloMosaic.Lib.ValueIdx
import Idealize.ShloMosaic.Lib.ValueLayout

set_option maxRecDepth 16384

noncomputable section

namespace Cert.KernelIdeal.Tile

open Cert.KernelIdeal Cert.KernelIdeal.Gen
open Idealize.ShloMosaic Idealize.ShloMosaic.ValueIdx

/-- A column position below 16384, reduced modulo the 16 classes. -/
abbrev classOf (n : Fin 16384) : Fin 16 := ⟨n.val % 16, Nat.mod_lt _ (by decide)⟩

/-- A [128, 16] matrix repeated 1024 times along its second axis, read at `(r, n)`: the matrix at `(r, n mod 16)`,
    whichever copy the column falls in. -/
theorem repeat_apply {α : Type} (v : S128x16.Idx → α)
    (h : Shape.Concatenates ((List.replicate 1024 (⟨S128x16, v⟩ : (s : Shape) × (s.Idx → α))).map (·.1)) S128x16384 1)
    (r : Fin 128) (n : Fin 16384) :
    concatenate S128x16384 1 (List.replicate 1024 (⟨S128x16, v⟩ : (s : Shape) × (s.Idx → α))) h (ix2 r n)
      = v (ix2 r (classOf n)) := by
  exact Cert.LaneTile.tile_lanes_apply (R := 128) (K := 16) (N := 1024) (by decide) v h r n

/-- The stored block at `(0, r, n)`: the token block at the column's class plus the flattened row at the column. -/
theorem tile_store_apply (x : Vec Ideal S1x128x16 .f32) (p : Vec Ideal S1x1x16384 .f32) (r : Fin 128) (n : Fin 16384) :
    k1_pay1 (F := Ideal) x p (ix3 (0 : Fin 1) r n)
      = x (ix3 (0 : Fin 1) r (classOf n)) + p (ix3 (0 : Fin 1) (0 : Fin 1) n) := by
  unfold k1_pay1
  try dsimp only
  refine (shapeCast_ab_1ab_apply _ _ (0 : Fin 1) r n).trans ?_
  rw [addf_apply]
  refine congrArg₂ (· + ·) ?_ ?_
  · refine (repeat_apply _ _ r n).trans ?_
    exact shapeCast_1ab_ab_apply x _ r (classOf n)
  · refine (broadcastTo_1b_ab_apply _ _ r n).trans ?_
    refine (shapeCast_a_1a_apply _ _ (0 : Fin 1) n).trans ?_
    refine shapeCast_apply p _ (ix1 n) (ix3 (0 : Fin 1) (0 : Fin 1) n) ?_
    rw [Shape.rowMajor_val_three, Shape.rowMajor_val_one]
    show (0 * 1 + 0) * 16384 + n.val = n.val
    omega

/-- The same at any index of the stored block. -/
theorem tile_store_at (x : Vec Ideal S1x128x16 .f32) (p : Vec Ideal S1x1x16384 .f32) (y : S1x128x16384.Idx) :
    k1_pay1 (F := Ideal) x p y = x (ix3 (0 : Fin 1) (y 1) (classOf (y 2))) + p (ix3 (0 : Fin 1) (0 : Fin 1) (y 2)) := by
  obtain ⟨u, r, n, rfl⟩ : ∃ (u : Fin 1) (r : Fin 128) (n : Fin 16384), y = ix3 u r n := ⟨y 0, y 1, y 2, eq_ix3 y⟩
  obtain rfl : u = 0 := Subsingleton.elim _ _
  exact tile_store_apply x p r n

end Cert.KernelIdeal.Tile

end
-- ==== Proof.TileRegion.lean ====
/-
  The broadcast-add region as a whole: its output array, [2, 1024, 16384], after the run.

  The grid is 2 × 8: point `t` stands for batch `t / 8` and token tile `t mod 8` (128 tokens). It reads that tile's
  scores (a block [1, 128, 16] of the [2, 1024, 16] array), the batch's flattened row (the block [1, 1, 16384] of the
  [2, 1, 16384] array, the same for all eight tiles of a batch), and writes back the block [1, 128, 16384] of the output
  at the same batch and tile. What a point writes back is its block of ONE function of the two arrays — entry
  `(b, l, n)` the first array at `(b, l, n mod 16)` plus the second at `(b, 0, n)` — and the sixteen blocks cover
  the output, so the output ends holding that function. Stated for any contents `V` the region is entered with.
-/
import proofs.«146051_j15977278341602_2_alg».proof.Proof.Gen.KernelIdeal.Frame
import proofs.«146051_j15977278341602_2_alg».proof.Proof.TileBody

set_option maxRecDepth 16384

noncomputable section

namespace Cert.KernelIdeal.Tile

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Scores `a` of shape [2, 1024, 16] repeated along the last axis, plus a row `p` per batch: entry `(b, l, n)` is
    `a (b, l, n mod 16) + p (b, 0, n)`. -/
def spread (a : S2x1024x16.Idx → Elt Ideal .f32) (p : S2x1x16384.Idx → Elt Ideal .f32) : S2x1024x16384.Idx → Elt Ideal .f32 :=
  fun i => a (ix3 (i 0) (i 1) (classOf (i 2))) + p (ix3 (i 0) (0 : Fin 1) (i 2))

theorem zero3 : (![0, 0, 0] : Fin 3 → Nat) = fun _ => 0 := funext fun a => by fin_cases a <;> rfl

/-- The printed index maps over the sixteen grid points: the score window and the output window sit at block
    `(t / 8, t mod 8, 0)`, the row window at block `(t / 8, 0, 0)`. -/
theorem index_facts : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

/-- What point `t` writes back is block `t` of `spread` of the two arrays as the region finds them. -/
theorem flushed_out (c : Dev nD) (t : Fin cfg1.N) :
    (dat1 V c).flushed 2 t = ((cfg1.win 2).blk t).view.read (Elt Ideal) (spread (V c main_v2_0) (V c main_v6)) := by
  show (cfg1.win 2).cut (grid1.coords t) ((dat1 V c).after 2 t) = _
  rw [after1_2]
  unfold out1_2
  rw [View.canon_unit_zero zero3]
  simp only [View.ld_unit_zero (S := S1x128x16) zero3, View.ld_unit_zero (S := S1x1x16384) zero3]
  obtain ⟨e0, e1, e2, e3, e4, e5, e6, e7, e8⟩ := index_facts t
  funext j
  show k1_pay1 (iblk1 V c 0 t) (iblk1 V c 1 t) j = spread (V c main_v2_0) (V c main_v6) (((cfg1.win 2).blk t).view.emb j)
  refine (tile_store_at (iblk1 V c 0 t) (iblk1 V c 1 t) j).trans ?_
  unfold spread
  have hj0 : (j 0).val < 1 := (j 0).isLt
  have hj1 : (j 1).val < 128 := (j 1).isLt
  have hj2 : (j 2).val < 16384 := (j 2).isLt
  have hx : iblk1 V c 0 t (ix3 (0 : Fin 1) (j 1) (classOf (j 2)))
      = V c main_v2_0 (ix3 ((((cfg1.win 2).blk t).view.emb j) 0) ((((cfg1.win 2).blk t).view.emb j) 1)
          (classOf ((((cfg1.win 2).blk t).view.emb j) 2))) := by
    show V c main_v2_0 (((cfg1.win 0).blk t).view.emb (ix3 (0 : Fin 1) (j 1) (classOf (j 2)))) = _
    refine congrArg (V c main_v2_0) (funext fun a => Fin.ext ?_)
    match a with
    | ⟨0, _⟩ => show win1_0.index t (0 : Fin 3) * 1 + 1 * 0 = win1_2.index t (0 : Fin 3) * 1 + 1 * (j 0).val; omega
    | ⟨1, _⟩ => show win1_0.index t (1 : Fin 3) * 128 + 1 * (j 1).val = win1_2.index t (1 : Fin 3) * 128 + 1 * (j 1).val; omega
    | ⟨2, _⟩ => show win1_0.index t (2 : Fin 3) * 16 + 1 * ((j 2).val % 16) = (win1_2.index t (2 : Fin 3) * 16384 + 1 * (j 2).val) % 16; omega
  have hp : iblk1 V c 1 t (ix3 (0 : Fin 1) (0 : Fin 1) (j 2))
      = V c main_v6 (ix3 ((((cfg1.win 2).blk t).view.emb j) 0) (0 : Fin 1) ((((cfg1.win 2).blk t).view.emb j) 2)) := by
    show V c main_v6 (((cfg1.win 1).blk t).view.emb (ix3 (0 : Fin 1) (0 : Fin 1) (j 2))) = _
    refine congrArg (V c main_v6) (funext fun a => Fin.ext ?_)
    match a with
    | ⟨0, _⟩ => show win1_1.index t (0 : Fin 3) * 1 + 1 * 0 = win1_2.index t (0 : Fin 3) * 1 + 1 * (j 0).val; omega
    | ⟨1, _⟩ => show win1_1.index t (1 : Fin 3) * 1 + 1 * 0 = 0; omega
    | ⟨2, _⟩ => show win1_1.index t (2 : Fin 3) * 16384 + 1 * (j 2).val = win1_2.index t (2 : Fin 3) * 16384 + 1 * (j 2).val; omega
  rw [hx, hp]

/-- An index of the output array is in point `t`'s block iff each coordinate is in the block's range. -/
theorem mem_out (t : Fin cfg1.N) (i : S2x1024x16384.Idx) :
    i ∈ ((cfg1.win 2).blk t).view.set ↔ ∀ a : Fin 3, win1_2.index t a * S1x128x16384.size a ≤ (i a).val
      ∧ (i a).val < win1_2.index t a * S1x128x16384.size a + S1x128x16384.size a := by
  show i ∈ ((View.whole main_v7).slice (win1_2.rect t)).set ↔ _
  rw [View.set_slice_whole, Rect.mem_set_unit]
  exact Iff.rfl

/-- The point that covers token `l` of batch `b`: batch `b`, tile `l / 128`. -/
def pointOf (i : S2x1024x16384.Idx) : Fin cfg1.N :=
  ⟨(i 0).val * 8 + (i 1).val / 128, by
    have hN : grid1.N = 16 := N_1
    have h0 : (i 0).val < 2 := (i 0).isLt
    have h1 : (i 1).val < 1024 := (i 1).isLt
    show (i 0).val * 8 + (i 1).val / 128 < grid1.N
    omega⟩

theorem cover_out (i : S2x1024x16384.Idx) :
    ∃ t : Fin cfg1.N, (cfg1.win 2).flush t = true ∧ i ∈ ((cfg1.win 2).blk t).view.set := by
  have h0 : (i 0).val < 2 := (i 0).isLt
  have h1 : (i 1).val < 1024 := (i 1).isLt
  have h2 : (i 2).val < 16384 := (i 2).isLt
  have ht : (pointOf i).val = (i 0).val * 8 + (i 1).val / 128 := rfl
  obtain ⟨e0, e1, e2, e3, e4, e5, e6, e7, e8⟩ := index_facts (pointOf i)
  refine ⟨pointOf i, flush1_2 _, ?_⟩
  rw [mem_out]
  intro a
  match a with
  | ⟨0, _⟩ => show win1_2.index (pointOf i) (0 : Fin 3) * 1 ≤ (i 0).val ∧ (i 0).val < win1_2.index (pointOf i) (0 : Fin 3) * 1 + 1; omega
  | ⟨1, _⟩ => show win1_2.index (pointOf i) (1 : Fin 3) * 128 ≤ (i 1).val ∧ (i 1).val < win1_2.index (pointOf i) (1 : Fin 3) * 128 + 128; omega
  | ⟨2, _⟩ => show win1_2.index (pointOf i) (2 : Fin 3) * 16384 ≤ (i 2).val ∧ (i 2).val < win1_2.index (pointOf i) (2 : Fin 3) * 16384 + 16384; omega

/-- THE OUTPUT ARRAY after the region: the scores repeated along the last axis plus each batch's row. -/
theorem out_array (c : Dev nD) : (dat1 V c).arrAt 2 cfg1.N = spread (V c main_v2_0) (V c main_v6) :=
  (dat1 V c).arrAt_eq_of_cover 2 _ (fun t _ => flushed_out V c t) cover_out

end Cert.KernelIdeal.Tile

end
-- ==== Proof.Stages.lean ====
/-
  The fold of the idealized kernel's run, opened stage by stage.

  In program order: two slices cut the classifier's weight [16, 1536] into its left and right halves [16, 768]; the
  projection region leaves the tokens' scores against each half in two arrays [2, 1024, 16]; the host adds the bias to
  the second (broadcast along batch and token) and flattens it to [2, 1, 16384]; the broadcast-add region leaves its
  [2, 1024, 16384] array from the first scores and that flattened row; and the host reshapes it to [2, 1024, 1024, 16].
  Each lemma below reads one buffer at one boundary of the fold in terms of the boundary before it, down to the launch
  memory. No arithmetic happens here: the regions' arrays are the two region modules' whole-array theorems.
-/
import proofs.«146051_j15977278341602_2_alg».proof.Proof.Gen.KernelIdeal.Frame
import proofs.«146051_j15977278341602_2_alg».proof.Proof.ProjRegion
import proofs.«146051_j15977278341602_2_alg».proof.Proof.TileRegion
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## What the projection region is entered with -/

/-- The tokens are as launched: the two slices write other buffers. -/
theorem tokens_at_entry (c : Dev nD) : V1 m ρ c main_arg0 = m ((c : Thread nD τ).loc main_arg0) := by
  show StableHlo.after hostOps0 (W0 m ρ c) (Proc.devRef .tc main_arg0) = _
  after_results
  try rfl

/-- The first weight block is the left half of the launched weight. -/
theorem left_weight_at_entry (c : Dev nD) :
    V1 m ρ c main_v0 = extractStridedSlice S16x768 ![0, 0] (m ((c : Thread nD τ).loc main_arg1)) slices_S16x1536_S16x768_0_0 := by
  show StableHlo.after hostOps0 (W0 m ρ c) (Proc.devRef .tc main_v0) = _
  after_results
  try rfl

/-- The second weight block is the right half. -/
theorem right_weight_at_entry (c : Dev nD) :
    V1 m ρ c main_v1 = extractStridedSlice S16x768 ![0, 768] (m ((c : Thread nD τ).loc main_arg1)) slices_S16x1536_S16x768_0_768 := by
  show StableHlo.after hostOps0 (W0 m ρ c) (Proc.devRef .tc main_v1) = _
  after_results
  try rfl

/-! ## What the projection region leaves -/

/-- The first scores: every token against every row of the left half. -/
theorem left_scores (c : Dev nD) : W2 m ρ c (Proc.devRef .tc main_v2_0)
    = Proj.rowsOf (m ((c : Thread nD τ).loc main_arg0))
        (extractStridedSlice S16x768 ![0, 0] (m ((c : Thread nD τ).loc main_arg1)) slices_S16x1536_S16x768_0_0) := by
  refine (W2_arr m ρ c 3).trans ((Proj.left_array (V1 m ρ) c).trans ?_)
  rw [tokens_at_entry, left_weight_at_entry]

/-- The second scores: every token against every row of the right half. -/
theorem right_scores (c : Dev nD) : W2 m ρ c (Proc.devRef .tc main_v2_1)
    = Proj.rowsOf (m ((c : Thread nD τ).loc main_arg0))
        (extractStridedSlice S16x768 ![0, 768] (m ((c : Thread nD τ).loc main_arg1)) slices_S16x1536_S16x768_0_768) := by
  refine (W2_arr m ρ c 4).trans ((Proj.right_array (V1 m ρ) c).trans ?_)
  rw [tokens_at_entry, right_weight_at_entry]

/-- The bias is as launched: neither the slices nor the region write it. -/
theorem bias_kept (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results
  try rfl

/-! ## What the broadcast-add region is entered with -/

/-- The first scores are untouched by the host operations in between. -/
theorem scores_at_entry (c : Dev nD) : V3 m ρ c main_v2_0 = W2 m ρ c (Proc.devRef .tc main_v2_0) := by
  show StableHlo.after hostOps1 (W2 m ρ c) (Proc.devRef .tc main_v2_0) = _
  after_results

/-- The flattened row: the second scores plus the bias broadcast along batch and token, reshaped to [2, 1, 16384]. -/
theorem row_at_entry (c : Dev nD) : (V3 m ρ c main_v6 : S2x1x16384.Idx → Elt Ideal .f32)
    = (fun i : S2x1x16384.Idx => shapeCast S2x1x16384
        (addf (F := Ideal) (s := S2x1024x16) (φ := .f32) (W2 m ρ c (Proc.devRef .tc main_v2_1))
          (broadcastInDim S2x1024x16 (![0, 1, 2] : Fin 3 → Fin S2x1024x16.rank) bcast_S1x1x16_S2x1024x16_0_1_2
            (broadcastInDim S1x1x16 (![2] : Fin 1 → Fin S1x1x16.rank) bcast_S16_S1x1x16_2
              (W2 m ρ c (Proc.devRef .tc main_arg2) : S16.Idx → Elt Ideal .f32))))
        shapeCasts_S2x1024x16_S2x1x16384 i : S2x1x16384.Idx → Elt Ideal .f32) := by
  show StableHlo.after hostOps1 (W2 m ρ c) (Proc.devRef .tc main_v6) = _
  after_results
  try rfl

/-! ## What the broadcast-add region leaves, and the result -/

/-- The region's output array from what it was entered with. -/
theorem out_at_exit (c : Dev nD) : W4 m ρ c (Proc.devRef .tc main_v7)
    = Tile.spread (V3 m ρ c main_v2_0) (V3 m ρ c main_v6) :=
  (W4_arr m ρ c 2).trans (Tile.out_array (V3 m ρ) c)

/-- The result is that array reshaped to [2, 1024, 1024, 16]. -/
theorem result_at_exit (c : Dev nD) : (W5 m ρ c (Proc.devRef .tc main_v8) : S2x1024x1024x16.Idx → Elt Ideal .f32)
    = (fun i : S2x1024x1024x16.Idx => shapeCast S2x1024x1024x16
        (W4 m ρ c (Proc.devRef .tc main_v7) : S2x1024x16384.Idx → Elt Ideal .f32) shapeCasts_S2x1024x16384_S2x1024x1024x16 i
        : S2x1024x1024x16.Idx → Elt Ideal .f32) := by
  show StableHlo.after hostOps2 (W4 m ρ c) (Proc.devRef .tc main_v8) = _
  after_results
  try rfl

end Cert.KernelIdeal.Stages

end
-- ==== Proof.KernelValue.lean ====
/-
  The idealized kernel's result as one function of its three arguments, index by index.

  With `x` the tokens [2, 1024, 768], `W` the weight [16, 1536] and `β` the bias [16], the result at
  `(b, i, j, c)` is

      (Σ_h x (b, i, h) · W (c, h))  +  ((Σ_h x (b, j, h) · W (c, 768 + h))  +  β c).

  Reading the stages backwards from the result: the last reshape splits the output array's last axis, so
  `(b, i, j, c)` is the [2, 1024, 16384] array at `(b, i, 16 j + c)`; there the broadcast-add region left the first
  scores at `(b, i, (16 j + c) mod 16) = (b, i, c)` plus the flattened row at `(b, 0, 16 j + c)`; the row is the
  reshape of the biased second scores, whose row-major position `16 j + c` within a batch is entry `(b, j, c)`; and
  the bias broadcast along batch and token reads `β c` there. The bias is added to the second scores BEFORE the pair
  sum, which is why the sum is grouped to the right.
-/
import proofs.«146051_j15977278341602_2_alg».proof.Proof.Stages
import proofs.«146051_j15977278341602_2_alg».proof.Proof.LibLaneTile
import Idealize.ShloMosaic.Lib.Pipeline.Value
import Idealize.ShloMosaic.Lib.ValueIdx

set_option maxRecDepth 16384

noncomputable section

namespace Cert.KernelIdeal.Logits

open Cert.KernelIdeal Cert.KernelIdeal.Gen
open Idealize.ShloMosaic Idealize.ShloMosaic.TcCoe Idealize.ShloMosaic.ValueIdx
open Idealize.SL Idealize.SL.Sem

/-- Position `16 j + c` of a batch's 16384 flattened scores. -/
abbrev flatPos (j : Fin 1024) (c : Fin 16) : Fin 16384 :=
  ⟨j.val * 16 + c.val, by have hj := j.isLt; have hc := c.isLt; omega⟩

theorem classOf_flatPos (j : Fin 1024) (c : Fin 16) : Tile.classOf (flatPos j c) = c :=
  Fin.ext (by have hc := c.isLt; show (j.val * 16 + c.val) % 16 = c.val; omega)

/-- A reshape [2, 1024, 16384] → [2, 1024, 1024, 16] read at `(b, i, j, c)`: the operand at `(b, i, 16 j + c)`. -/
theorem split_last_apply {α : Type} (y : S2x1024x16384.Idx → α) (h : S2x1024x16384.ShapeCasts S2x1024x1024x16)
    (b : Fin 2) (i j : Fin 1024) (c : Fin 16) :
    shapeCast S2x1024x1024x16 y h (ix4 b i j c) = y (ix3 b i (flatPos j c)) := by
  exact Cert.LaneTile.split_last_apply (a := 2) (b := 1024) (d := 1024) (e := 16) y h b i j c

/-- A reshape [2, 1024, 16] → [2, 1, 16384] read at `(b, 0, 16 j + c)`: the operand at `(b, j, c)`. -/
theorem flat_row_apply {α : Type} (z : S2x1024x16.Idx → α) (h : S2x1024x16.ShapeCasts S2x1x16384)
    (b : Fin 2) (j : Fin 1024) (c : Fin 16) :
    shapeCast S2x1x16384 z h (ix3 b (0 : Fin 1) (flatPos j c)) = z (ix3 b j c) := by
  exact Cert.LaneTile.flatten_rows_apply (a := 2) (b := 1024) (c := 16) z h b j c

/-- The bias laid out as [1, 1, 16] and copied along batch and token, read at `(b, j, c)`: the bias at `c`. -/
theorem bias_apply {α : Type} (β : S16.Idx → α) (h1 : S16.BroadcastsInDim S1x1x16 (![2] : Fin 1 → Fin S1x1x16.rank))
    (h2 : S1x1x16.BroadcastsInDim S2x1024x16 (![0, 1, 2] : Fin 3 → Fin S2x1024x16.rank))
    (b : Fin 2) (j : Fin 1024) (c : Fin 16) :
    broadcastInDim S2x1024x16 (![0, 1, 2] : Fin 3 → Fin S2x1024x16.rank) h2
      (broadcastInDim S1x1x16 (![2] : Fin 1 → Fin S1x1x16.rank) h1 β) (ix3 b j c) = β (ix1 c) := by
  refine (broadcastInDim_apply _ h2 _ (ix3 b j c) (ix3 (0 : Fin 1) (0 : Fin 1) c) (fun a => match a with
    | ⟨0, _⟩ => by show (0 : Nat) = if (1 : Nat) = 1 then 0 else b.val; rw [if_pos rfl]
    | ⟨1, _⟩ => by show (0 : Nat) = if (1 : Nat) = 1 then 0 else j.val; rw [if_pos rfl]
    | ⟨2, _⟩ => by show c.val = if (16 : Nat) = 1 then 0 else c.val; rw [if_neg (by decide)])).trans ?_
  exact broadcastInDim_apply _ h1 β (ix3 (0 : Fin 1) (0 : Fin 1) c) (ix1 c) (fun a => match a with
    | ⟨0, _⟩ => by show c.val = if (16 : Nat) = 1 then 0 else c.val; rw [if_neg (by decide)])

/-- The stages after the projections composed, at `(b, i, j, c)`: first scores at `(b, i, c)`, plus second scores at
    `(b, j, c)` plus the bias at `c`. -/
theorem stages_apply (A R : S2x1024x16.Idx → Elt Ideal .f32) (β : S16.Idx → Elt Ideal .f32)
    (h1 : S16.BroadcastsInDim S1x1x16 (![2] : Fin 1 → Fin S1x1x16.rank))
    (h2 : S1x1x16.BroadcastsInDim S2x1024x16 (![0, 1, 2] : Fin 3 → Fin S2x1024x16.rank))
    (h3 : S2x1024x16.ShapeCasts S2x1x16384) (h4 : S2x1024x16384.ShapeCasts S2x1024x1024x16)
    (b : Fin 2) (i j : Fin 1024) (c : Fin 16) :
    shapeCast S2x1024x1024x16
        (Tile.spread A (fun n => shapeCast S2x1x16384
          (addf (F := Ideal) (s := S2x1024x16) (φ := .f32) R
            (broadcastInDim S2x1024x16 (![0, 1, 2] : Fin 3 → Fin S2x1024x16.rank) h2
              (broadcastInDim S1x1x16 (![2] : Fin 1 → Fin S1x1x16.rank) h1 β))) h3 n)) h4 (ix4 b i j c)
      = A (ix3 b i c) + (R (ix3 b j c) + β (ix1 c)) := by
  refine (split_last_apply _ h4 b i j c).trans ?_
  show A (ix3 b i (Tile.classOf (flatPos j c)))
      + shapeCast S2x1x16384 (addf (F := Ideal) (s := S2x1024x16) (φ := .f32) R
          (broadcastInDim S2x1024x16 (![0, 1, 2] : Fin 3 → Fin S2x1024x16.rank) h2
            (broadcastInDim S1x1x16 (![2] : Fin 1 → Fin S1x1x16.rank) h1 β))) h3
          (ix3 b (0 : Fin 1) (flatPos j c)) = _
  rw [classOf_flatPos, flat_row_apply, addf_apply, bias_apply]

/-- THE KERNEL'S FUNCTION: at `(b, i, j, c)` token `i` against the left half of the weight, plus token `j` against
    the right half plus the bias. -/
def logits (x : S2x1024x768.Idx → Elt Ideal .f32) (W : S16x1536.Idx → Elt Ideal .f32) (β : S16.Idx → Elt Ideal .f32) :
    S2x1024x1024x16.Idx → Elt Ideal .f32 :=
  fun q => Proj.rowsOf x (extractStridedSlice S16x768 ![0, 0] W slices_S16x1536_S16x768_0_0) (ix3 (q 0) (q 1) (q 3))
    + (Proj.rowsOf x (extractStridedSlice S16x768 ![0, 768] W slices_S16x1536_S16x768_0_768) (ix3 (q 0) (q 2) (q 3))
      + β (ix1 (q 3)))

variable (m : (ℓ : Loc nD τ sig) → Buf (Elt Ideal) ℓ) (ρ : Dev nD → PrngReg)

/-- The result buffer at the end of the fold is `logits` of the launched arguments. -/
theorem result_eq (c : Dev nD) : W5 m ρ c (Proc.devRef .tc main_v8)
    = logits (m ((c : Thread nD τ).loc main_arg0)) (m ((c : Thread nD τ).loc main_arg1)) (m ((c : Thread nD τ).loc main_arg2)) := by
  rw [Stages.result_at_exit, Stages.out_at_exit, Stages.scores_at_entry, Stages.row_at_entry, Stages.left_scores,
    Stages.right_scores, Stages.bias_kept]
  funext q
  obtain ⟨b, i, j, k, rfl⟩ : ∃ (b : Fin 2) (i j : Fin 1024) (k : Fin 16), q = ix4 b i j k := ⟨q 0, q 1, q 2, q 3, eq_ix4 q⟩
  exact stages_apply _ _ _ _ _ _ _ b i j k

end Cert.KernelIdeal.Logits

end
-- ==== Proof.RefValue.lean ====
/-
  The idealized reference computes the kernel's function with the pair sum grouped the other way.

  Operation by operation the reference projects the tokens on the left half of the weight and on the right half (two
  contractions over the 768 features), lays the first along the `j` axis and the second along the `i` axis of
  [2, 1024, 1024, 16], adds them, and adds the bias broadcast over everything: at `(b, i, j, c)`

      ((Σ_h x (b, i, h) · W (c, h)) + (Σ_h x (b, j, h) · W (c, 768 + h))) + β c.

  The kernel adds the bias to the second projection first. Addition of extended reals is associative — also at the
  infinities, where `+∞ + -∞` is `-∞` in whichever grouping it arises — so the two results agree at every index, for
  every input: no entry needs to be finite.
-/
import proofs.«146051_j15977278341602_2_alg».proof.Proof.Gen.ReferenceIdeal.Read
import proofs.«146051_j15977278341602_2_alg».proof.Proof.KernelValue

set_option maxRecDepth 16384

noncomputable section

namespace Cert.ReferenceIdeal.Pairs

open Cert.ReferenceIdeal Cert.ReferenceIdeal.Gen Cert.ReferenceIdeal.Read
open Idealize.ShloMosaic Idealize.ShloMosaic.ValueIdx

/-! ## The composed index functions of the reference's layout operations, by coordinates -/

theorem tokens_left (b : Fin 2) (i j : Fin 1024) (k : Fin 16) (h : Fin 768) :
    lidx_main_v2 (idx_main_v4 (idx_main_v6 (ix4 b i j k))) h = ix3 b i h :=
  funext fun a => Fin.ext (by match a with | ⟨0, _⟩ => rfl | ⟨1, _⟩ => rfl | ⟨2, _⟩ => rfl)

theorem weight_left (b : Fin 2) (i j : Fin 1024) (k : Fin 16) (h : Fin 768) :
    ridx_main_v2 (idx_main_v4 (idx_main_v6 (ix4 b i j k))) h = ix2 k h :=
  funext fun a => Fin.ext (by match a with | ⟨0, _⟩ => rfl | ⟨1, _⟩ => rfl)

theorem tokens_right (b : Fin 2) (i j : Fin 1024) (k : Fin 16) (h : Fin 768) :
    lidx_main_v3 (idx_main_v5 (idx_main_v7 (ix4 b i j k))) h = ix3 b j h :=
  funext fun a => Fin.ext (by match a with | ⟨0, _⟩ => rfl | ⟨1, _⟩ => rfl | ⟨2, _⟩ => rfl)

theorem weight_right (b : Fin 2) (i j : Fin 1024) (k : Fin 16) (h : Fin 768) :
    ridx_main_v3 (idx_main_v5 (idx_main_v7 (ix4 b i j k))) h = ix2 k h :=
  funext fun a => Fin.ext (by match a with | ⟨0, _⟩ => rfl | ⟨1, _⟩ => rfl)

theorem bias_at (b : Fin 2) (i j : Fin 1024) (k : Fin 16) :
    idx_main_v9 (idx_main_v10 (ix4 b i j k)) = ix1 k :=
  funext fun a => Fin.ext (by match a with | ⟨0, _⟩ => rfl)

/-- The reference's result, as a function of its arguments, is the kernel's function. -/
theorem reference_eq (x : (⟨S2x1024x768, .f32⟩ : BufTy).Contents (Elt Ideal)) (W : (⟨S16x1536, .f32⟩ : BufTy).Contents (Elt Ideal))
    (β : (⟨S16, .f32⟩ : BufTy).Contents (Elt Ideal)) :
    val_main_v11 (F := Ideal) x W β = Cert.KernelIdeal.Logits.logits x W β := by
  funext q
  obtain ⟨b, i, j, k, rfl⟩ : ∃ (b : Fin 2) (i j : Fin 1024) (k : Fin 16), q = ix4 b i j k := ⟨q 0, q 1, q 2, q 3, eq_ix4 q⟩
  rw [val_main_v11_apply, val_main_v8_apply, val_main_v6_apply, val_main_v4_apply, val_main_v2_apply,
    val_main_v7_apply, val_main_v5_apply, val_main_v3_apply, val_main_v10_apply, val_main_v9_apply]
  simp only [tokens_left, weight_left, tokens_right, weight_right, bias_at]
  unfold Cert.KernelIdeal.Logits.logits Cert.KernelIdeal.Proj.rowsOf val_main_v0 val_main_v1
  exact add_assoc _ _ _

end Cert.ReferenceIdeal.Pairs

end
-- ==== Proof.lean ====
/-
  A pairwise classification head: for every batch `b`, every ordered pair of tokens `(i, j)` and every class `c`,

      logits (b, i, j, c) = concat (x (b, i, ·), x (b, j, ·)) · W (c, ·) + β c,

  with `x` the tokens [2, 1024, 768], `W` the weight [16, 1536] and `β` the bias [16]. Both programs split `W` into
  its left and right halves and never build the concatenation: the left half is contracted with token `i`, the right
  half with token `j`.

  The kernel does it in two regions: one computes the two projections [2, 1024, 16] on the matrix unit; the host adds
  the bias to the second and flattens it per batch; the other region streams the [2, 1024, 16384] output, repeating
  the first projection along the lanes and adding the flattened row; a final reshape gives [2, 1024, 1024, 16]. The
  reference computes `(first + second) + β` by broadcasts. Over the extended reals a change of float format is the
  identity and a matrix product into a zero accumulator is the plain sum, so the kernel's result is
  `first + (second + β)`, and the two agree by associativity of addition, which holds at the infinities too: the
  precondition (every input finite) is not used by the value claim.

  The three frames: each kernel program's is the frame of its two regions among the host stretches; the reference's
  is its run with the result forgotten. The idealization rewrote no operation, so there is nothing to preserve.
-/
import proofs.«146051_j15977278341602_2_alg».proof.Defs
import proofs.«146051_j15977278341602_2_alg».proof.Proof.Gen.Kernel
import proofs.«146051_j15977278341602_2_alg».proof.Proof.Gen.Kernel.Skeleton
import proofs.«146051_j15977278341602_2_alg».proof.Proof.Gen.Kernel.Launch
import proofs.«146051_j15977278341602_2_alg».proof.Proof.Gen.Kernel.Points
import proofs.«146051_j15977278341602_2_alg».proof.Proof.Gen.Kernel.Frame
import proofs.«146051_j15977278341602_2_alg».proof.Proof.Gen.KernelIdeal
import proofs.«146051_j15977278341602_2_alg».proof.Proof.Gen.KernelIdeal.Skeleton
import proofs.«146051_j15977278341602_2_alg».proof.Proof.Gen.KernelIdeal.Launch
import proofs.«146051_j15977278341602_2_alg».proof.Proof.Gen.KernelIdeal.Points
import proofs.«146051_j15977278341602_2_alg».proof.Proof.Gen.KernelIdeal.Frame
import proofs.«146051_j15977278341602_2_alg».proof.Proof.Gen.ReferenceIdeal
import proofs.«146051_j15977278341602_2_alg».proof.Proof.Gen.Pre_finite_inputs
import proofs.«146051_j15977278341602_2_alg».proof.Proof.Gen.ReferenceIdeal.Run
import proofs.«146051_j15977278341602_2_alg».proof.Proof.Gen.ReferenceIdeal.Read
import proofs.«146051_j15977278341602_2_alg».proof.Proof.Boundary
import proofs.«146051_j15977278341602_2_alg».proof.Proof.KernelValue
import proofs.«146051_j15977278341602_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed: every weakly fair execution terminates without a fault and leaves the arguments alone. -/
theorem frame_kernel : Cert.frame_Kernel := fun m ρ _ => Cert.Kernel.Gen.frame m ρ

/-- The same of the kernel read over the extended reals. -/
theorem frame_kernel_ideal : Cert.frame_KernelIdeal := fun m ρ _ => Cert.KernelIdeal.Gen.frame m ρ

/-- The reference has no kernel region: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the result at `logits` of the arguments: the kernel by its run read stage by stage, the
    reference by its run and the regrouping of the pair sum. -/
theorem algebraic : Cert.algebraic_KernelIdeal_ReferenceIdeal := by
  intro m ρ m' ρ' _ hagree
  refine ⟨fun c => Cert.KernelIdeal.Logits.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Logits.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.Pairs.reference_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
